-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S256 : Shape := ⟨1, ![256]⟩
abbrev S43234x512 : Shape := ⟨2, ![43234, 512]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S256 : S_.BroadcastsInDim S256 (![] : Fin 0 → Fin S256.rank)
  reducesTo_S256_S_d0 : S256.ReducesTo [0] S_
  bcast_S_S43234x512 : S_.BroadcastsInDim S43234x512 (![] : Fin 0 → Fin S43234x512.rank)
  reducesTo_S43234x512_S_d0_1 : S43234x512.ReducesTo [0, 1] S_

variable [Facts]

def fn_part1 {F : FTy → Type} [FloatOps F] (main_v13 : IVec S_ 1) (main_v16 : IVec S43234x512 1) : IVec S_ 1 :=
  let main_c_5 : IVec S_ 1 := constantI S_ 1 1#1
  let main_v17 : IVec S_ 1 := (fun x v => Host.reduce IntOp.andi x v reducesTo_S43234x512_S_d0_1 h_S_) main_v16 main_c_5
  let main_v18 : IVec S_ 1 := andi main_v13 main_v17
  main_v18

def fn {F : FTy → Type} [FloatOps F] (main_arg0 : FVec F S256x768 .f32) (main_arg1 : IVec S256 32) (main_arg2 : FVec F S256x768 .f32) (main_arg3 : FVec F S256 .f32) (main_arg4 : FVec F S43234x512 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x768 .f32 := Host.absf main_arg2
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S43234x512 .f32 := Host.absf main_arg4
  let main_cst_4 : FVec F S_ .f32 := constant S_ .f32 0x7F800000#32
  let main_v15 : FVec F S43234x512 .f32 := broadcastInDim S43234x512 ![] bcast_S_S43234x512 main_cst_4
  let main_v16 : IVec S43234x512 1 := cmpf .olt main_v14 main_v15
  fn_part1 (F := F) main_v13 main_v16
-- ==== Kernel.lean ====
abbrev S256x768 : Shape := ⟨2, ![256, 768]⟩
abbrev S256 : Shape := ⟨1, ![256]⟩
abbrev S43234x512 : Shape := ⟨2, ![43234, 512]⟩
abbrev S_ : Shape := ⟨0, ![]⟩
abbrev S768x256 : Shape := ⟨2, ![768, 256]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S256x43234 : Shape := ⟨2, ![256, 43234]⟩
abbrev S3072x512 : Shape := ⟨2, ![3072, 512]⟩
abbrev S256x3072 : Shape := ⟨2, ![256, 3072]⟩
abbrev S3072 : Shape := ⟨1, ![3072]⟩
abbrev S3072x1 : Shape := ⟨2, ![3072, 1]⟩
abbrev S1x3072 : Shape := ⟨2, ![1, 3072]⟩

abbrev nBuf : Space → Nat
  | .hbm => 45
  | .vmem => 5
  | .smem => 0
  | _ => 0

abbrev bufTy : (tb : Table) → Fin (tcTables nBuf tb) → BufTy
  | .hbm, ⟨0, _⟩ => ⟨S256x768, .f32⟩
  | .hbm, ⟨1, _⟩ => ⟨S256, .i32⟩
  | .hbm, ⟨2, _⟩ => ⟨S256x768, .f32⟩
  | .hbm, ⟨3, _⟩ => ⟨S256, .f32⟩
  | .hbm, ⟨4, _⟩ => ⟨S43234x512, .f32⟩
  | .hbm, ⟨5, _⟩ => ⟨S_, .f32⟩
  | .hbm, ⟨6, _⟩ => ⟨S256x768, .f32⟩
  | .hbm, ⟨7, _⟩ => ⟨S256x768, .f32⟩
  | .hbm, ⟨8, _⟩ => ⟨S768x256, .f32⟩
  | .hbm, ⟨9, _⟩ => ⟨S256x256, .f32⟩
  | .hbm, ⟨10, _⟩ => ⟨S1x256, .f32⟩
  | .hbm, ⟨11, _⟩ => ⟨S256x256, .f32⟩
  | .hbm, ⟨12, _⟩ => ⟨S256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x512, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256, .f32⟩
  | .hbm, ⟨43, _⟩ => ⟨S256x1, .f32⟩
  | .hbm, ⟨44, _⟩ => ⟨S256x43234, .f32⟩
  | .local _ .vmem, ⟨0, _⟩ => ⟨S3072x512, .f32⟩
  | .local _ .vmem, ⟨1, _⟩ => ⟨S3072x512, .f32⟩
  | .local _ .vmem, ⟨2, _⟩ => ⟨S256x1, .f32⟩
  | .local _ .vmem, ⟨3, _⟩ => ⟨S256x3072, .f32⟩
  | .local _ .vmem, ⟨4, _⟩ => ⟨S256x3072, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x768 : S_.BroadcastsInDim S256x768 (![] : Fin 0 → Fin S256x768.rank)
  transposes_S256x768_S768x256_1_0 : S256x768.Transposes [1, 0] S768x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256 : S_.BroadcastsInDim S256 (![] : Fin 0 → Fin S256.rank)
  bcast_S256_S256x1_0 : S256.BroadcastsInDim S256x1 (![0] : Fin 1 → Fin S256x1.rank)
  slices_S256x512_S256x256_0_0 : S256x512.Slices ![0, 0] S256x256
  slices_S256x512_S256x256_0_256 : S256x512.Slices ![0, 256] S256x256
  bcast_S_S256x256 : S_.BroadcastsInDim S256x256 (![] : Fin 0 → Fin S256x256.rank)
  reducesTo_S256x256_S256_d1 : S256x256.ReducesTo [1] S256
  h_S_ : 0 < S_.numel
  shapeCasts_S256_S256x1 : S256.ShapeCasts S256x1
  inb_S3072x512_S3072x512_0_0 : ∀ a, (![0, 0] : Fin 2 → Nat) a + S3072x512.size a ≤ S3072x512.size a
  h_S3072x512 : 0 < S3072x512.numel
  reduces_S3072x512_S3072 : S3072x512.Reduces [1] S3072
  shapeCasts_S3072_S3072x1 : S3072.ShapeCasts S3072x1
  transposes_S3072x1_p1_0_S1x3072 : S3072x1.Transposes [1, 0] S1x3072
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x3072 : S256x1.Broadcasts S256x3072
  broadcasts_S1x3072_S256x3072 : S1x3072.Broadcasts S256x3072
  iota_S256x3072_d1_w32 : S256x3072.Iotas .tc 32 [1]
  inb_S256x3072_S256x3072_0_0 : ∀ a, (![0, 0] : Fin 2 → Nat) a + S256x3072.size a ≤ S256x3072.size a
  h_S256x3072 : 0 < S256x3072.numel
  dot_S256x768_S768x256_S256x256_1_0_0_1_n_n_wf : DotDims.WF S256x768 S768x256 S256x256 [1] [0] [0] [1] [] []
  gather_S43234x512_S256x1_S256x512_1_0_n_n_0_1_1512_wf : GatherDims.WF S43234x512 S256x1 S256x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x512.size a < S43234x512.size a
  hwx0_0 : ∀ i : grid0.Coords, EltTy.bits .f32 = 32 ∨ (Rect.unit (s := S43234x512) (fun a => cc0_transform_0 i a * S3072x512.size a) (fun a => (Pipeline.Clip.of (cc0_transform_0 i a) (S3072x512.size a) (S43234x512.size a)).extent (S3072x512.size a)) fun a => Pipeline.Clip.inb (Pipeline.Clip.ok_of (hstart0_0 i a))).WholeWords (EltTy.packing .f32)
  hwxs0_0 : ∀ i : grid0.Coords, EltTy.bits .f32 = 32 ∨ (Rect.unit (s := S3072x512) (fun _ => 0) (fun a => (Pipeline.Clip.of (cc0_transform_0 i a) (S3072x512.size a) (S43234x512.size a)).extent (S3072x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x3072.size a < S256x43234.size a
  hwx0_2 : ∀ i : grid0.Coords, EltTy.bits .f32 = 32 ∨ (Rect.unit (s := S256x43234) (fun a => cc0_transform_2 i a * S256x3072.size a) (fun a => (Pipeline.Clip.of (cc0_transform_2 i a) (S256x3072.size a) (S256x43234.size a)).extent (S256x3072.size a)) fun a => Pipeline.Clip.inb (Pipeline.Clip.ok_of (hstart0_2 i a))).WholeWords (EltTy.packing .f32)
  hwxs0_2 : ∀ i : grid0.Coords, EltTy.bits .f32 = 32 ∨ (Rect.unit (s := S256x3072) (fun _ => 0) (fun a => (Pipeline.Clip.of (cc0_transform_2 i a) (S256x3072.size a) (S256x43234.size a)).extent (S256x3072.size a)) fun a => (Nat.zero_add _).trans_le (Pipeline.Clip.extent_le (Pipeline.Clip.ok_of (hstart0_2 i a)))).WholeWords (EltTy.packing .f32)

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def gather_S43234x512_S256x1_S256x512_1_0_n_n_0_1_1512 : GatherDims S43234x512 S256x1 S256x512 where
  offsetDims := [1]
  collapsedSliceDims := [0]
  operandBatchingDims := []
  startIndicesBatchingDims := []
  startIndexMap := [0]
  indexVectorDim := 1
  sliceSizes := ![1, 512]
  wf := gather_S43234x512_S256x1_S256x512_1_0_n_n_0_1_1512_wf

abbrev win0_0 : Pipeline.Window sig grid0 :=
  Pipeline.Window.ofSpecClip (Memref.whole main_arg4) S3072x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v31) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v32) S256x3072.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x768 : Shape := ⟨2, ![256, 768]⟩
abbrev S256 : Shape := ⟨1, ![256]⟩
abbrev S43234x512 : Shape := ⟨2, ![43234, 512]⟩
abbrev S_ : Shape := ⟨0, ![]⟩
abbrev S768x256 : Shape := ⟨2, ![768, 256]⟩
abbrev S256x256 : Shape := ⟨2, ![256, 256]⟩
abbrev S1x256 : Shape := ⟨2, ![1, 256]⟩
abbrev S256x1 : Shape := ⟨2, ![256, 1]⟩
abbrev S256x512 : Shape := ⟨2, ![256, 512]⟩
abbrev S43234x256 : Shape := ⟨2, ![43234, 256]⟩
abbrev S43234 : Shape := ⟨1, ![43234]⟩
abbrev S1x43234 : Shape := ⟨2, ![1, 43234]⟩
abbrev S256x43234 : Shape := ⟨2, ![256, 43234]⟩

abbrev nBuf : Space → Nat
  | .hbm => 56
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256, .i32⟩
  | .hbm, ⟨2, _⟩ => ⟨S256x768, .f32⟩
  | .hbm, ⟨3, _⟩ => ⟨S256, .f32⟩
  | .hbm, ⟨4, _⟩ => ⟨S43234x512, .f32⟩
  | .hbm, ⟨5, _⟩ => ⟨S_, .f32⟩
  | .hbm, ⟨6, _⟩ => ⟨S256x768, .f32⟩
  | .hbm, ⟨7, _⟩ => ⟨S256x768, .f32⟩
  | .hbm, ⟨8, _⟩ => ⟨S768x256, .f32⟩
  | .hbm, ⟨9, _⟩ => ⟨S256x256, .f32⟩
  | .hbm, ⟨10, _⟩ => ⟨S1x256, .f32⟩
  | .hbm, ⟨11, _⟩ => ⟨S256x256, .f32⟩
  | .hbm, ⟨12, _⟩ => ⟨S256x256, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x512, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256, .f32⟩
  | .hbm, ⟨43, _⟩ => ⟨S43234x256, .f32⟩
  | .hbm, ⟨44, _⟩ => ⟨S43234x256, .f32⟩
  | .hbm, ⟨45, _⟩ => ⟨S43234x256, .f32⟩
  | .hbm, ⟨46, _⟩ => ⟨S_, .f32⟩
  | .hbm, ⟨47, _⟩ => ⟨S43234, .f32⟩
  | .hbm, ⟨48, _⟩ => ⟨S256x1, .f32⟩
  | .hbm, ⟨49, _⟩ => ⟨S1x43234, .f32⟩
  | .hbm, ⟨50, _⟩ => ⟨S256x43234, .f32⟩
  | .hbm, ⟨51, _⟩ => ⟨S256x43234, .f32⟩
  | .hbm, ⟨52, _⟩ => ⟨S256x43234, .f32⟩
  | .hbm, ⟨53, _⟩ => ⟨S_, .f32⟩
  | .hbm, ⟨54, _⟩ => ⟨S256x43234, .f32⟩
  | .hbm, ⟨55, _⟩ => ⟨S256x43234, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S256x768 : S_.BroadcastsInDim S256x768 (![] : Fin 0 → Fin S256x768.rank)
  transposes_S256x768_S768x256_1_0 : S256x768.Transposes [1, 0] S768x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256 : S_.BroadcastsInDim S256 (![] : Fin 0 → Fin S256.rank)
  bcast_S256_S256x1_0 : S256.BroadcastsInDim S256x1 (![0] : Fin 1 → Fin S256x1.rank)
  slices_S256x512_S256x256_0_0 : S256x512.Slices ![0, 0] S256x256
  slices_S256x512_S256x256_0_256 : S256x512.Slices ![0, 256] S256x256
  bcast_S_S256x256 : S_.BroadcastsInDim S256x256 (![] : Fin 0 → Fin S256x256.rank)
  reducesTo_S256x256_S256_d1 : S256x256.ReducesTo [1] S256
  h_S_ : 0 < S_.numel
  slices_S43234x512_S43234x256_0_0 : S43234x512.Slices ![0, 0] S43234x256
  slices_S43234x512_S43234x256_0_256 : S43234x512.Slices ![0, 256] S43234x256
  reducesTo_S43234x256_S43234_d1 : S43234x256.ReducesTo [1] S43234
  bcast_S43234_S1x43234_1 : S43234.BroadcastsInDim S1x43234 (![1] : Fin 1 → Fin S1x43234.rank)
  bcast_S256x1_S256x43234_0_1 : S256x1.BroadcastsInDim S256x43234 (![0, 1] : Fin 2 → Fin S256x43234.rank)
  bcast_S1x43234_S256x43234_0_1 : S1x43234.BroadcastsInDim S256x43234 (![0, 1] : Fin 2 → Fin S256x43234.rank)
  bcast_S_S256x43234 : S_.BroadcastsInDim S256x43234 (![] : Fin 0 → Fin S256x43234.rank)
  dot_S256x768_S768x256_S256x256_1_0_0_1_n_n_wf : DotDims.WF S256x768 S768x256 S256x256 [1] [0] [0] [1] [] []
  gather_S43234x512_S256x1_S256x512_1_0_n_n_0_1_1512_wf : GatherDims.WF S43234x512 S256x1 S256x512 [1] [0] [] [0] [] 1 ![1, 512]

variable [Facts₀]

def dot_S256x768_S768x256_S256x256_1_0_0_1_n_n : DotDims S256x768 S768x256 S256x256 where
  lhsContracting := [1]
  rhsContracting := [0]
  lhsNonContracting := [0]
  rhsNonContracting := [1]
  lhsBatch := []
  rhsBatch := []
  wf := dot_S256x768_S768x256_S256x256_1_0_0_1_n_n_wf
def gather_S43234x512_S256x1_S256x512_1_0_n_n_0_1_1512 : GatherDims S43234x512 S256x1 S256x512 where
  offsetDims := [1]
  collapsedSliceDims := [0]
  operandBatchingDims := []
  startIndicesBatchingDims := []
  startIndexMap := [0]
  indexVectorDim := 1
  sliceSizes := ![1, 512]
  wf := gather_S43234x512_S256x1_S256x512_1_0_n_n_0_1_1512_wf

class Facts : Prop extends Facts₀ where

variable [Facts]
-- ==== Proof.KFrame.lean ====
/-
  The frame of the word-level program: from any memory it runs to its end without fault, and its five argument
  arrays end holding what they held at the start.

  The program is a stretch of host operations, none of which writes an argument, followed by one pipelined region
  on a grid of 15 points. A BLOCK of a staged array at grid point j is the rectangle of the array that the point
  works on, as far as it lies inside the array:

    * the entity table (43234 rows of 512 columns) is read in tiles of 3072 rows: the block at j is the rows
      3072 j … 3072 j + 3071, cut at row 43234. Fourteen blocks are whole; the last has 226 rows, and its fetch
      fills the first 226 rows of the 3072-row staging buffer only: the rows below them hold words nothing names;
    * the column of head sums (256 by 1) is one block, the same at every point, fetched at the first point;
    * the score table (256 by 43234) is written back in blocks of 3072 columns, the last cut to 226 columns.

  What the body does at a point: it loads the whole tile buffer and the whole head-sum buffer and stores one whole
  block of scores into the score buffer. It stores into neither input buffer: whatever the two hold when the body
  starts, they hold when it ends.

  Why the score block is FORGOTTEN here. At the word level the row sums of the tile are the float instance's own
  reduction of the whole tile, and no law says that row q of its result reads row q of the tile alone. At the last
  point the tile buffer's rows past the table's end hold unnamed words, so no function of the table names what the
  body leaves in the score buffer there. The frame does not need it: it speaks of the argument arrays, and the score
  table is not one of them. So the proof data says nothing of the score window: its buffer is handed to the body at
  any contents and taken back at any contents, and its array may end at anything.

  What is left to prove of the body is that it ends without fault and hands the two input buffers back as found:
  the tile buffer on the part the fetch filled (its obligation is stated on that part only), the head-sum buffer
  exactly. The pipeline rule then says that every input array of the region ends at its contents at the region's
  entry. For the entity table these are its contents at the start, since no host operation writes it; the other
  four arguments are arrays of no window, and nothing writes them at all.
-/
import proofs.«146615_j28140625723971_2_alg».proof.Defs
import proofs.«146615_j28140625723971_2_alg».proof.Proof.Gen.Kernel.Frame
import proofs.«146615_j28140625723971_2_alg».proof.Proof.Gen.Kernel.Skeleton
import proofs.«146615_j28140625723971_2_alg».proof.Proof.Gen.Pre_finite_inputs
import Idealize.ShloMosaic.Lib.Pipeline.FrameBody
import Idealize.ShloMosaic.Lib.Pipeline.Value
import Idealize.ShloMosaic.Lib.Tactic

set_option maxRecDepth 16384

noncomputable section

namespace Cert.Kernel.WordFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body on one grid point -/

/-- The three whole-buffer rectangles the body reads and writes through: the tile, the head-sum column, the score
    block. -/
abbrev rTile : Rect S3072x512 := Rect.unit (s := S3072x512) ![0, 0] S3072x512.size inb_S3072x512_S3072x512_0_0
abbrev rHead : Rect S256x1 := Rect.unit (s := S256x1) ![0, 0] S256x1.size inb_S256x1_S256x1_0_0
abbrev rOut : Rect S256x3072 := Rect.unit (s := S256x3072) ![0, 0] S256x3072.size inb_S256x3072_S256x3072_0_0

/-- What the body leaves in the score buffer at grid point `i`: a function of the point and of what the two input
    buffers hold, all 3072 rows of the tile buffer included. -/
def blockOut (i : grid0.Coords) (x0 : Vec F S3072x512 .f32) (x1 : Vec F S256x1 .f32) : Vec F S256x3072 .f32 :=
  View.canon [⟨rOut, k0_pay1 i (View.ld x0 rTile) (View.ld x1 rHead)⟩]

/-- The one store covers the score buffer. -/
theorem cover_out (p0 : Vec F S256x3072 .f32) (y : S256x3072.Idx) :
    ∃ pc ∈ ([⟨rOut, p0⟩] : List (View.Piece (Elt F) S256x3072 .f32)), y ∈ pc.1.set :=
  View.cover_of_tiled [⟨rOut, p0⟩] S256x3072.size (by rfl) y

set_option maxHeartbeats 1000000 in
/-- The body's triple, at any reading of the float operations: from the two input buffers at `x0`, `x1` and the score
    buffer at anything, the body runs to its end without fault; the two input buffers hold `x0`, `x1` still (it
    only loads from them) and the score buffer holds `blockOut`. -/
theorem sound_kernel (c : Dev nD) (E : Set ℕ) (i : grid0.Coords)
    (arg1 : Memref sig .tc .vmem S3072x512 .f32) (harg1 : arg1.IsWhole)
    (arg2 : Memref sig .tc .vmem S256x1 .f32) (harg2 : arg2.IsWhole)
    (arg3 : Memref sig .tc .vmem S256x3072 .f32) (harg3 : arg3.IsWhole)
    (x0 : Vec F S3072x512 .f32) (x1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
                  ∗ owns (c : Thread nD τ) arg3 fullShare (blockOut i x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data: the two inputs named, the score window forgotten -/

variable (m : (ℓ : Loc nD τ sig) → Buf (Elt F) ℓ) (ρ : Dev nD → PrngReg)

/-- The windows nothing is said of: the score table's (window 2) alone. -/
def forgets : Fin 3 → Bool := fun w => match w with
  | ⟨0, _⟩ => false
  | ⟨1, _⟩ => false
  | ⟨2, _⟩ => true

/-- The proof data on core `c`. The arrays are as the region finds them. After the body at point `t` the tile buffer
    holds the table's block at `t` on the rows the fetch fills — below them the zero word, a filler nothing reads,
    the obligation of this window being stated on the filled rows only —; the head-sum buffer holds the column; the
    score buffer is not named. The invariant is the region's own (the scratch and the generator register, untouched),
    nothing is owed, the shares are full. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, h⟩ => Pipeline.Dat.unnamed (cfg := cfg0) ⟨2, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in the tile buffer and in the head-sum buffer. -/
theorem after_0 (c : Dev nD) (t : Fin cfg0.N) :
    (dats m 0 c).after 0 t = win0_0.fill (grid0.coords t) (fun _ => Scalar.ofBits .f32 0#32) (iblk m c 0 t) := by
  dsimp only [dats]
theorem after_1 (c : Dev nD) (t : Fin cfg0.N) : (dats m 0 c).after 1 t = iblk m c 1 t := by dsimp only [dats]

/-- What the body finds in the tile buffer. The table's window is fetched at every point (its block index is the
    point), so the buffer holds the block at `t` on the rows the fetch fills and, below them, whatever it held: `d`. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- What the body finds in the head-sum buffer: the column, at every point — fetched at the first, and left in place
    by the body at every point since. -/
theorem before_1 (c : Dev nD) (t : Fin cfg0.N) (d) : (dats m 0 c).before 1 t d = iblk m c 1 t :=
  before0_1_of m (dats m 0 c) (A_eq m c 1) (after_1 m c) t d

/-! ## The body obligation, at a generic point -/

/-- What the body is called with at point `t`: the invariant, nothing owed, the two input buffers at what they then
    hold, the score buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- What it returns: the tile buffer at the named contents on the rows the fetch fills and at anything below them, the
    head-sum buffer at the column, the score buffer at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
          (win0_0.fill (grid0.coords t) d (win0_0.cut (grid0.coords t) ((dats m 0 c).after 0 t))))
    ∗ owns (c : Thread nD τ) (st0_1 t) fullShare ((dats m 0 c).after 1 t)
    ∗ (∃ X, owns (c : Thread nD τ) (st0_2 t) fullShare X))

/-- The body at any point. The tile buffer arrives holding the block on the filled rows and some `d` below; the body
    leaves it so, and that is the named contents on the filled rows with the same `d` below (the filled rows of a
    filled buffer are what it was filled with). The head-sum buffer arrives and leaves holding the column. The score
    buffer arrives at anything and leaves at something. The invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, Window.cut_fill]
  iintro ⟨HΦ, Ho, ⟨%d0, H0⟩, ⟨%d1, H1⟩, ⟨%d2, H2⟩⟩
  iapply (sound_kernel c Set.univ (grid0.coords t) _ _ _ _ _ _ (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists _; iexact H2

/-- The body obligation of the proof data with the score window forgotten, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- For any values, from any memory with zero counters: every weakly fair execution of the program terminates, and in
    every final state each INPUT array of the region holds its contents at the region's entry, every unscoped buffer
    that is no array of the region holds what it held there, and nothing is said of the score table. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- From such a run to the five arguments. The entity table is the array of an input window: it may end only at its
    entry contents, which are its contents at the start since no host operation writes it. The other four arguments
    are arrays of no window: they end at their entry contents, which again are those at the start. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Eq.mp (congrFun ((rdat c).ArrAt_in 0 rfl _) _) ((h c).1 0)).trans ((hA c 0).trans (V_main_arg4 m c))⟩) h

/-- The frame at any reading of the float operations: the program runs to its end and its five argument arrays end
    unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets) (A_eq m) (run_main m ρ)

/-- The frame of the word-level program: `frame_any` at the bit-exact instance. The precondition is not used. -/
theorem frame : Cert.frame_Kernel := fun m ρ _ => frame_any (F := Bits) m ρ

end Cert.Kernel.WordFrame

end
-- ==== Proof.KIBody.lean ====
/-
  The kernel body on one grid point.

  The body reads its whole entity tile (3072 rows of 512 columns) and the whole column of head sums (256 by 1), and
  writes one whole block of scores (256 by 3072): entry (b, q) of the block is one over the head sum of row b less
  the sum of row q of the tile, with the value one in place of the gap wherever the global column j * 3072 + q is
  past the table's last entity (j the grid point). A further load of the score block's buffer is dead. So the body
  leaves the two input buffers as they were and the score buffer at one pure function, `blockOut`, of the point and
  the two inputs; nothing else is touched. This holds at any reading of the float operations.
-/
import proofs.«146615_j28140625723971_2_alg».proof.Proof.Gen.KernelIdeal.Frame
import proofs.«146615_j28140625723971_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body reads and writes through. -/
abbrev rTile : Rect S3072x512 := Rect.unit (s := S3072x512) ![0, 0] S3072x512.size inb_S3072x512_S3072x512_0_0
abbrev rHead : Rect S256x1 := Rect.unit (s := S256x1) ![0, 0] S256x1.size inb_S256x1_S256x1_0_0
abbrev rOut : Rect S256x3072 := Rect.unit (s := S256x3072) ![0, 0] S256x3072.size inb_S256x3072_S256x3072_0_0

/-- What the body leaves in the score buffer at grid point `i`, from the tile and the head-sum column it read. -/
def blockOut (i : grid0.Coords) (x0 : Vec F S3072x512 .f32) (x1 : Vec F S256x1 .f32) : Vec F S256x3072 .f32 :=
  View.canon [⟨rOut, k0_pay1 i (View.ld x0 rTile) (View.ld x1 rHead)⟩]

/-- The one store covers the score buffer. -/
theorem cover_out (p0 : Vec F S256x3072 .f32) (y : S256x3072.Idx) :
    ∃ pc ∈ ([⟨rOut, p0⟩] : List (View.Piece (Elt F) S256x3072 .f32)), y ∈ pc.1.set :=
  View.cover_of_tiled [⟨rOut, p0⟩] S256x3072.size (by rfl) y

/-- Every access is of a whole buffer, so the block the body leaves is the body's arithmetic on what it read. -/
theorem blockOut_eq (i : grid0.Coords) (x0 : Vec F S3072x512 .f32) (x1 : Vec F S256x1 .f32) :
    blockOut i x0 x1 = k0_pay1 i x0 x1 := by
  have hz : (![0, 0] : Fin 2 → Nat) = fun _ => 0 := funext fun a => by fin_cases a <;> rfl
  unfold blockOut
  rw [View.canon_unit_zero hz, View.ld_unit_zero (S := S3072x512) hz, View.ld_unit_zero (S := S256x1) hz]

set_option maxHeartbeats 1000000 in
/-- The body's triple: from the two input buffers at `x0`, `x1` and the score buffer at anything, the body runs to
    its end with the inputs as they were and the score buffer at `blockOut`. -/
theorem sound_kernel (c : Dev nD) (E : Set ℕ) (i : grid0.Coords)
    (arg1 : Memref sig .tc .vmem S3072x512 .f32) (harg1 : arg1.IsWhole)
    (arg2 : Memref sig .tc .vmem S256x1 .f32) (harg2 : arg2.IsWhole)
    (arg3 : Memref sig .tc .vmem S256x3072 .f32) (harg3 : arg3.IsWhole)
    (x0 : Vec F S3072x512 .f32) (x1 : Vec F S256x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
                  ∗ owns (c : Thread nD τ) arg3 fullShare (blockOut i x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Body

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.KIEntry.lean ====
/-
  The body's arithmetic read at one entry, on the extended reals.

  Entry (b, q) of the block the body computes is  1 / s,  where s is the gap  h b - ∑ k, x (q, k)  — the head sum of
  batch row b less the sum of all 512 entries of row q of the tile — when the mask bit of column q is set, and the
  value one otherwise. The mask bit of column q at grid point j compares j * 3072 + q, as a signed 32-bit word, with
  the number of entities, 43234. The entry therefore reads the tile only along its row q.
-/
import proofs.«146615_j28140625723971_2_alg».proof.Proof.Gen.KernelIdeal.Skeleton
import proofs.«146615_j28140625723971_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen
open Idealize.ShloMosaic Idealize.ShloMosaic.ValueIdx

/-- The mask bit of column `q` of the block at grid point `i`: is the global column `i * 3072 + q`, as a signed
    word, below 43234? -/
def maskBit (i : grid0.Coords) (q : Fin 3072) : BitVec 1 :=
  IntOp.cmpi .slt (IntOp.addi (Scalar.muli (BitVec.ofNat 32 (i 0).val) 3072#32) (BitVec.ofNat 32 q.val)) 43234#32

/-- The tail sums, as the body lays them out against the block: at (b, q) the sum of row q of the tile. -/
theorem tail_apply (x0 : FVec Ideal S3072x512 .f32) (b : Fin 256) (q : Fin 3072) :
    broadcastTo S256x3072
        (transpose S1x3072 [1, 0]
          (shapeCast S3072x1 (multiReduction .add [1] S3072 x0 0x00000000#32 reduces_S3072x512_S3072 (.inl rfl) rfl)
            shapeCasts_S3072_S3072x1)
          transposes_S3072x1_p1_0_S1x3072)
        broadcasts_S1x3072_S256x3072 (ix2 b q)
      = ∑ k : Fin 512, x0 (ix2 q k) :=
  (broadcastTo_1b_ab_apply _ broadcasts_S1x3072_S256x3072 b q).trans
    ((transpose_ix2_apply _ transposes_S3072x1_p1_0_S1x3072 (0 : Fin 1) q).trans
      ((shapeCast_a_a1_apply _ shapeCasts_S3072_S3072x1 q (0 : Fin 1)).trans
        (rowSum_apply x0 0x00000000#32 reduces_S3072x512_S3072 (.inl rfl) rfl q)))

/-- The head sums against the block: at (b, q) the column's entry of row b. -/
theorem head_apply (x1 : FVec Ideal S256x1 .f32) (b : Fin 256) (q : Fin 3072) :
    broadcastTo S256x3072 (shapeCast S256x1 x1 shapeCasts_S256x1_S256x1) broadcasts_S256x1_S256x3072 (ix2 b q)
      = x1 (ix2 b (0 : Fin 1)) :=
  (broadcastTo_a1_ab_apply _ broadcasts_S256x1_S256x3072 b q).trans
    (congrFun (shapeCast_self x1 shapeCasts_S256x1_S256x1) _)

/-- The mask against the block: at (b, q) the mask bit of column q. -/
theorem mask_apply (i : grid0.Coords) (b : Fin 256) (q : Fin 3072) :
    cmpi .slt (addi (broadcast S256x3072 (Scalar.muli (BitVec.ofNat 32 (i 0).val) 3072#32))
        (iota .tc S256x3072 32 [1] iota_S256x3072_d1_w32)) (broadcast S256x3072 (43234#32 : BitVec 32)) (ix2 b q)
      = maskBit i q := by
  unfold maskBit
  show IntOp.cmpi .slt (IntOp.addi _ (iota .tc S256x3072 32 [1] iota_S256x3072_d1_w32 (ix2 b q))) _ = _
  rw [iota_single_apply]
  rfl

/-- The body's block at entry (b, q). -/
theorem pay_apply (i : grid0.Coords) (x0 : FVec Ideal S3072x512 .f32) (x1 : FVec Ideal S256x1 .f32)
    (b : Fin 256) (q : Fin 3072) :
    k0_pay1 (F := Ideal) i x0 x1 (ix2 b q)
      = Ideal.div (Ideal.ofBits .f32 0x3F800000#32)
          (Scalar.select (maskBit i q) (x1 (ix2 b (0 : Fin 1)) - ∑ k : Fin 512, x0 (ix2 q k))
            (Ideal.ofBits .f32 0x3F800000#32)) := by
  unfold k0_pay1
  show Ideal.div _ (Scalar.select (cmpi .slt _ _ (ix2 b q)) (broadcastTo S256x3072 _ _ (ix2 b q) - broadcastTo S256x3072 _ _ (ix2 b q)) _) = _
  rw [mask_apply, tail_apply, head_apply]
  rfl

end Cert.KernelIdeal.Entry

end
-- ==== Proof.KIFrame.lean ====
/-
  The idealized kernel's run, with every buffer's contents named.

  The grid has 15 points. At point t the pipeline fetches rows 3072 t … of the entity table into the tile buffer —
  all 3072 rows at the first fourteen points, only the 226 rows that are left at the last one, the buffer's other
  rows then holding values nothing names —, holds the column of head sums in a buffer it fetched once, runs the
  body, and writes the score block back to columns 3072 t … of the score table, again only the columns inside the
  table. The proof data names what each buffer holds after the body: the tile (its unnamed rows filled with
  zeros, a choice nothing reads), the head sums, and the body's block of those two.

  The one point that needs an argument is that the choice of filler is harmless: entry (b, q) of the body's block
  reads the tile only along row q, and a column q that is written back (q below the columns left in the table) is a
  row the fetch did fill (the rows left in the table are as many as the columns left). So the part of the block
  that is written back does not depend on the unnamed rows.
-/
import proofs.«146615_j28140625723971_2_alg».proof.Proof.KIBody
import proofs.«146615_j28140625723971_2_alg».proof.Proof.KIEntry
import Idealize.ShloMosaic.Lib.Pipeline.Frame
import Idealize.ShloMosaic.Lib.Pipeline.Kit

set_option maxRecDepth 16384

noncomputable section

namespace Cert.KernelIdeal.Exact

open Cert.KernelIdeal Cert.KernelIdeal.Gen Cert.KernelIdeal.Body Cert.KernelIdeal.Entry
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The cuts at each point -/

/-- At every point the rows of the tile inside the table are as many as the columns of the score block inside the
    score table; the tile's columns and the block's rows are never cut. -/
theorem cuts : ∀ t : Fin cfg0.N,
    win0_2.xsize (grid0.coords t) 1 = win0_0.xsize (grid0.coords t) 0
      ∧ win0_0.xsize (grid0.coords t) 1 = 512 ∧ win0_2.xsize (grid0.coords t) 0 = 256 :=
  (by decide +kernel : ∀ t : Fin grid0.N, win0_2.xsize (grid0.coords t) 1 = win0_0.xsize (grid0.coords t) 0
      ∧ win0_0.xsize (grid0.coords t) 1 = 512 ∧ win0_2.xsize (grid0.coords t) 0 = 256)

/-- Two fillings of the tile agree wherever the fetch fills. -/
theorem fill_eq_of_moved {α : Type} (i : grid0.Coords) (d d' : win0_0.block.Idx → α) (g : (win0_0.xblock i).Idx → α)
    {j : win0_0.block.Idx} (h : win0_0.moved i j = true) : win0_0.fill i d g j = win0_0.fill i d' g j := by
  unfold Window.fill; rw [dif_pos h, dif_pos h]

/-- The part of the body's block that is written back does not depend on the tile's unnamed rows. -/
theorem cut_block_indep (t : Fin cfg0.N) (d d' : S3072x512.Idx → EReal) (g : (win0_0.xblock (grid0.coords t)).Idx → EReal)
    (x1 : FVec Ideal S256x1 .f32) :
    win0_2.cut (grid0.coords t) (blockOut (F := Ideal) (grid0.coords t) (win0_0.fill (grid0.coords t) d g) x1)
      = win0_2.cut (grid0.coords t) (blockOut (F := Ideal) (grid0.coords t) (win0_0.fill (grid0.coords t) d' g) x1) := by
  funext j
  obtain ⟨h20, h01, h2r⟩ := cuts t
  have hj0 : (j 0).val < 256 := h2r ▸ (j 0).isLt
  have hj1 : (j 1).val < 3072 := Nat.lt_of_lt_of_le (j 1).isLt (win0_2.xsize_le (grid0.coords t) 1)
  have hbq : win0_2.xinj (grid0.coords t) j = ix2 (⟨(j 0).val, hj0⟩ : Fin 256) (⟨(j 1).val, hj1⟩ : Fin 3072) :=
    funext fun a => Fin.ext (by match a with | ⟨0, _⟩ => rfl | ⟨1, _⟩ => rfl)
  show blockOut _ _ _ (win0_2.xinj _ j) = blockOut _ _ _ (win0_2.xinj _ j)
  rw [blockOut_eq, blockOut_eq, hbq, pay_apply, pay_apply]
  have hsum : ∀ k : Fin 512,
      win0_0.fill (grid0.coords t) d g (ix2 (⟨(j 1).val, hj1⟩ : Fin 3072) k)
        = win0_0.fill (grid0.coords t) d' g (ix2 (⟨(j 1).val, hj1⟩ : Fin 3072) k) := fun k =>
    fill_eq_of_moved (grid0.coords t) d d' g ((win0_0.moved_iff _ _).mpr fun a => by
      match a with
      | ⟨0, _⟩ => show (j 1).val < win0_0.xsize (grid0.coords t) 0; rw [← h20]; exact (j 1).isLt
      | ⟨1, _⟩ => show k.val < win0_0.xsize (grid0.coords t) 1; rw [h01]; exact k.isLt)
  rw [Finset.sum_congr rfl fun k _ => hsum k]

/-! ## The proof data -/

/-- The tile at point `t`: the table's rows the fetch reads, the buffer's other rows at zero. -/
def tileAt (c : Dev nD) (t : Fin cfg0.N) : S3072x512.Idx → EReal :=
  win0_0.fill (grid0.coords t) (fun _ => (0 : EReal)) (iblk m c 0 t)

/-- The arrays as the region finds them; after the body the tile, the head sums, and the body's block of them. -/
def dats (_ : Fin 1) (c : Dev nD) : Dat τ (Elt Ideal) Unit ℕ (UR sig nD τ) ℕ cfg0 c where
  A w := V m c (Pipeline.arrRef spec0 w)
  after w t := match w with
    | ⟨0, _⟩ => tileAt m c t
    | ⟨1, _⟩ => iblk m c 1 t
    | ⟨2, _⟩ => blockOut (F := Ideal) (grid0.coords t) (tileAt m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_tile (c : Dev nD) (t : Fin cfg0.N) : (dats m 0 c).after 0 t = tileAt m c t := by dsimp only [dats]
theorem after_head (c : Dev nD) (t : Fin cfg0.N) : (dats m 0 c).after 1 t = iblk m c 1 t := by dsimp only [dats]
theorem after_block (c : Dev nD) (t : Fin cfg0.N) :
    (dats m 0 c).after 2 t = blockOut (F := Ideal) (grid0.coords t) (tileAt m c t) (iblk m c 1 t) := by dsimp only [dats]

/-- The tile buffer is fetched at every point: the table's rows where the fetch fills, anything elsewhere. -/
theorem before_tile (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- The head sums' buffer holds the column at every point. -/
theorem before_head (c : Dev nD) (t : Fin cfg0.N) (d) : (dats m 0 c).before 1 t d = iblk m c 1 t :=
  before0_1_of m (dats m 0 c) (A_eq m c 1) (after_head m c) t d

/-- The score block's buffer holds anything: it was written back at the point before. -/
theorem before_block (c : Dev nD) (t : Fin cfg0.N) (d) : (dats m 0 c).before 2 t d = d :=
  (dats m 0 c).before_out_reset 2 rfl t
    (by by_cases h0 : t.val = 0
        · exact .inl h0
        · exact .inr ⟨h0, flush0_2 _⟩) d

/-! ## The body obligation -/

theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_tile m c t d0, before_head m c t d1]
  -- the tile buffer keeps what it held, whose filled rows are the tile's: the same filler serves
  have e0 : (win0 0).fill (grid0.coords t) d0 ((win0 0).cut (grid0.coords t) ((dats m 0 c).after 0 t))
      = win0_0.fill (grid0.coords t) d0 (iblk m c 0 t) := by
    rw [after_tile]; unfold tileAt
    exact congrArg (win0_0.fill (grid0.coords t) d0) (win0_0.cut_fill _ _ _)
  -- the score buffer holds the body's block of the tile AS FOUND; its written-back part is the named block's
  have e2 : (win0 2).fill (grid0.coords t)
        (blockOut (F := Ideal) (grid0.coords t) (win0_0.fill (grid0.coords t) d0 (iblk m c 0 t)) (iblk m c 1 t))
        ((win0 2).cut (grid0.coords t) ((dats m 0 c).after 2 t))
      = blockOut (F := Ideal) (grid0.coords t) (win0_0.fill (grid0.coords t) d0 (iblk m c 0 t)) (iblk m c 1 t) := by
    rw [after_block]; unfold tileAt
    exact win0_2.fill_congr_cut _ (cut_block_indep t d0 (fun _ => (0 : EReal)) (iblk m c 0 t) (iblk m c 1 t))
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    rw [e0]; iexact H0
  isplitl [H1]
  · rw [after_head]; iexact H1
  · iexists blockOut (F := Ideal) (grid0.coords t) (win0_0.fill (grid0.coords t) d0 (iblk m c 0 t)) (iblk m c 1 t)
    rw [e2]; iexact H2

/-! ## The run and the frame -/

set_option backward.isDefEq.respectTransparency.types false in
/-- Every weakly fair execution of the program terminates, faults nowhere, and ends with each windowed array at what
    the write-backs of the proof data's blocks leave, every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to its end and its five argument arrays end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Exact

end
-- ==== Proof.Spec.lean ====
/-
  The score table as one function of the head sums and the entity table.

  For a batch row `b` and an entity `e` the score is the reciprocal of the gap between the row's head sum and the
  entity's tail sum, and the tail sum of entity `e` is the sum of ALL 512 columns of row `e` of the table:

      score hs ent (b, e) = 1 / (hs b - ∑ k < 512, ent (e, k)),

  on the extended reals, the quotient being the ideal instance's total division. The head sums enter as an opaque
  vector: both programs compute them by the same host operations, so nothing about them is ever opened.

  The one law of the certificate is also here, over any commutative additive monoid: a sum over 512 columns is the
  sum over 256 of the pairs (column k, column 256 + k) — the two halves of a row added before they are summed. It is
  a regrouping of a finite sum, commutativity and associativity only, so it holds at the infinities as well and no
  finiteness of the inputs is used.
-/
import Idealize.ShloMosaic.PureOps.Ideal
import Idealize.ShloMosaic.Lib.ValueIdx

noncomputable section

namespace Cert.Score

open Idealize.ShloMosaic Idealize.ShloMosaic.ValueIdx

/-- The batch's head sums, the entity table, the score table: their shapes. -/
abbrev Heads : Shape := ⟨1, ![256]⟩
abbrev Table : Shape := ⟨2, ![43234, 512]⟩
abbrev Scores : Shape := ⟨2, ![256, 43234]⟩

/-- The tail sum of entity `e`: every column of its row. -/
def tailSum (ent : FVec Ideal Table .f32) (e : Fin 43234) : EReal := ∑ k : Fin 512, ent (ix2 e k)

/-- The score of batch row `b` against entity `e`: one over the head sum less the tail sum. -/
def score (hs : FVec Ideal Heads .f32) (ent : FVec Ideal Table .f32) : FVec Ideal Scores .f32 :=
  fun j => Ideal.div (Ideal.ofBits .f32 0x3F800000#32) (hs (ix1 (j 0)) - tailSum ent (j 1))

theorem score_apply (hs : FVec Ideal Heads .f32) (ent : FVec Ideal Table .f32) (b : Fin 256) (e : Fin 43234) :
    score hs ent (ix2 b e) = Ideal.div (Ideal.ofBits .f32 0x3F800000#32) (hs (ix1 b) - tailSum ent e) := rfl

/-- A sum over 512 terms is the sum over 256 of the pairs (k, 256 + k): regrouping only. -/
theorem sum_halves {M : Type} [AddCommMonoid M] (f : Fin 512 → M) :
    ∑ k : Fin 512, f k = ∑ k : Fin 256, (f ⟨k.val, by omega⟩ + f ⟨256 + k.val, by omega⟩) := by
  rw [Finset.sum_add_distrib]
  have h := Fin.sum_univ_add (a := 256) (b := 256) (fun i : Fin (256 + 256) => f ⟨i.val, i.isLt⟩)
  simp only [Fin.coe_castAdd, Fin.coe_natAdd] at h
  exact h

end Cert.Score

end
-- ==== Proof.KIValue.lean ====
/-
  The score table after the idealized kernel's run.

  Point t of the grid writes back the columns 3072 t … of the score table that lie inside it, from the leading
  columns of the body's block. Entry (b, q) of that part is  1 / (h b - ∑ k, x (q, k)):  the mask bit of a column
  inside the table is set (3072 t + q < 43234 as numbers, far below the signed range), the head sum h b is the
  column the pipeline staged once, read at row b, and row q of the tile is row 3072 t + q of the entity table,
  because column q is written back only where row q was fetched. That is the specification's score at
  (b, 3072 t + q). The fifteen blocks' parts inside the table cover it (column e lies in block e / 3072), so the
  table ends holding the specification's score of the staged head sums and the entity table.
-/
import proofs.«146615_j28140625723971_2_alg».proof.Proof.KIFrame
import proofs.«146615_j28140625723971_2_alg».proof.Proof.Spec
import Idealize.ShloMosaic.Lib.Pipeline.Value

set_option maxRecDepth 16384

noncomputable section

namespace Cert.KernelIdeal.Exact

open Cert.KernelIdeal Cert.KernelIdeal.Gen Cert.KernelIdeal.Body Cert.KernelIdeal.Entry
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The layout, decided over the grid -/

/-- Point `t` reads row block `t` of the table, the whole head-sum column, and writes column block `t` of the score
    table; its grid coordinate is `t`; the columns it writes back end at the table's end. -/
theorem layout : ∀ t : Fin cfg0.N,
    win0_0.index t (0 : Fin 2) = t.val ∧ win0_0.index t (1 : Fin 2) = 0
      ∧ win0_1.index t (0 : Fin 2) = 0 ∧ win0_1.index t (1 : Fin 2) = 0
      ∧ win0_2.index t (0 : Fin 2) = 0 ∧ win0_2.index t (1 : Fin 2) = t.val
      ∧ (grid0.coords t 0).val = t.val
      ∧ t.val * 3072 + win0_2.xsize (grid0.coords t) 1 = min (t.val * 3072 + 3072) 43234 :=
  (by decide +kernel : ∀ t : Fin grid0.N,
    win0_0.index t (0 : Fin 2) = t.val ∧ win0_0.index t (1 : Fin 2) = 0
      ∧ win0_1.index t (0 : Fin 2) = 0 ∧ win0_1.index t (1 : Fin 2) = 0
      ∧ win0_2.index t (0 : Fin 2) = 0 ∧ win0_2.index t (1 : Fin 2) = t.val
      ∧ (grid0.coords t 0).val = t.val
      ∧ t.val * 3072 + win0_2.xsize (grid0.coords t) 1 = min (t.val * 3072 + 3072) 43234)

/-! ## The mask inside the table -/

/-- A global column below 43234 compares below it as a signed word: the product and the sum do not wrap. -/
theorem word_lt (t q : Nat) (ht : t < 15) (hq : q < 3072) (h : t * 3072 + q < 43234) :
    IntOp.cmpi .slt (IntOp.addi (Scalar.muli (BitVec.ofNat 32 t) 3072#32) (BitVec.ofNat 32 q)) 43234#32 = 1#1 := by
  have hx : IntOp.addi (Scalar.muli (BitVec.ofNat 32 t) 3072#32) (BitVec.ofNat 32 q) = BitVec.ofNat 32 (t * 3072 + q) := by
    show BitVec.ofNat 32 t * BitVec.ofNat 32 3072 + BitVec.ofNat 32 q = _
    rw [← BitVec.ofNat_mul, ← BitVec.ofNat_add]
  rw [hx]
  show BitVec.ofBool ((BitVec.ofNat 32 (t * 3072 + q)).slt 43234#32) = 1#1
  have hs : (BitVec.ofNat 32 (t * 3072 + q)).slt 43234#32 = true := by
    rw [BitVec.slt_eq_decide, decide_eq_true_eq]
    have hn : (BitVec.ofNat 32 (t * 3072 + q)).toNat = t * 3072 + q := by
      rw [BitVec.toNat_ofNat]; exact Nat.mod_eq_of_lt (by omega)
    have h1 : (BitVec.ofNat 32 (t * 3072 + q)).toInt = ((t * 3072 + q : Nat) : Int) := by
      rw [BitVec.toInt_eq_toNat_of_lt (by rw [hn]; omega), hn]
    have h2 : (43234#32 : BitVec 32).toInt = 43234 := by decide
    rw [h1, h2]; omega
  rw [hs]; rfl

theorem maskBit_inside (t : Fin cfg0.N) (q : Fin 3072) (h : t.val * 3072 + q.val < 43234) :
    maskBit (grid0.coords t) q = 1#1 := by
  unfold maskBit
  rw [(layout t).2.2.2.2.2.2.1]
  exact word_lt t.val q.val (show t.val < 15 from t.isLt) q.isLt h

theorem select_set {α : Type} (a b : α) : Scalar.select (1#1) a b = a := if_pos rfl

/-! ## The two inputs' blocks read at an entry -/

/-- The head sums as the region finds them, one per batch row: the staged column read at its one column. -/
def heads (c : Dev nD) : FVec Ideal Cert.Score.Heads .f32 := fun j => V m c main_v31 (ix2 (j 0) (0 : Fin 1))

/-- The head-sum block at any point is the whole column. -/
theorem head_read (c : Dev nD) (t : Fin cfg0.N) (b : Fin 256) :
    iblk m c 1 t (ix2 b (0 : Fin 1)) = V m c main_v31 (ix2 b (0 : Fin 1)) := by
  obtain ⟨-, -, e10, e11, -⟩ := layout t
  show V m c main_v31 (((cfg0.win 1).blk t).view.emb (ix2 b (0 : Fin 1))) = _
  have he : ((cfg0.win 1).blk t).view.emb (ix2 b (0 : Fin 1)) = ix2 b (0 : Fin 1) := funext fun a => Fin.ext (by
    match a with
    | ⟨0, _⟩ => show win0_1.index t (0 : Fin 2) * 256 + 1 * b.val = b.val; omega
    | ⟨1, _⟩ => show win0_1.index t (1 : Fin 2) * 1 + 1 * 0 = 0; omega)
  rw [he]

/-- A fetched row `q` of the tile at point `t` is row `3072 t + q` of the table. -/
theorem tile_read (c : Dev nD) (t : Fin cfg0.N) (q : Fin 3072) (k : Fin 512)
    (hq : q.val < win0_0.xsize (grid0.coords t) 0) (hlt : t.val * 3072 + q.val < 43234) :
    tileAt m c t (ix2 q k) = V m c main_arg4 (ix2 (⟨t.val * 3072 + q.val, hlt⟩ : Fin 43234) k) := by
  obtain ⟨-, h01, -⟩ := cuts t
  obtain ⟨e00, e01, -⟩ := layout t
  have hm : win0_0.moved (grid0.coords t) (ix2 q k) = true := (win0_0.moved_iff _ _).mpr fun a => by
    match a with
    | ⟨0, _⟩ => exact hq
    | ⟨1, _⟩ => show k.val < win0_0.xsize (grid0.coords t) 1; rw [h01]; exact k.isLt
  have h1 : tileAt m c t (ix2 q k)
      = iblk m c 0 t (fun a => ⟨(ix2 q k a).val, (win0_0.moved_iff _ _).mp hm a⟩) := by
    unfold tileAt Window.fill; rw [dif_pos hm]
  rw [h1]
  show V m c main_arg4 (((cfg0.win 0).blk t).view.emb _) = _
  have he : ((cfg0.win 0).blk t).view.emb (fun a => ⟨(ix2 q k a).val, (win0_0.moved_iff _ _).mp hm a⟩)
      = ix2 (⟨t.val * 3072 + q.val, hlt⟩ : Fin 43234) k := funext fun a => Fin.ext (by
    match a with
    | ⟨0, _⟩ => show win0_0.index t (0 : Fin 2) * 3072 + 1 * q.val = t.val * 3072 + q.val; omega
    | ⟨1, _⟩ => show win0_0.index t (1 : Fin 2) * 512 + 1 * k.val = k.val; omega)
  rw [he]

/-! ## What each point writes back, and the cover -/

/-- What point `t` writes back is block `t` of the specification's score. -/
theorem flushed_eq (c : Dev nD) (t : Fin cfg0.N) :
    (dats m 0 c).flushed 2 t
      = ((cfg0.win 2).blk t).view.read (Elt Ideal) (Cert.Score.score (heads m c) (V m c main_arg4)) := by
  show (cfg0.win 2).cut (grid0.coords t) ((dats m 0 c).after 2 t) = _
  rw [after_block]
  obtain ⟨h20, h01, h2r⟩ := cuts t
  obtain ⟨e00, e01, e10, e11, e20, e21, ect, ex⟩ := layout t
  funext j
  have hj0 : (j 0).val < 256 := h2r ▸ (j 0).isLt
  have hj1 : (j 1).val < 3072 := Nat.lt_of_lt_of_le (j 1).isLt (win0_2.xsize_le (grid0.coords t) 1)
  have hjx : (j 1).val < win0_2.xsize (grid0.coords t) 1 := (j 1).isLt
  have hin : t.val * 3072 + (j 1).val < 43234 := by omega
  have hbq : win0_2.xinj (grid0.coords t) j = ix2 (⟨(j 0).val, hj0⟩ : Fin 256) (⟨(j 1).val, hj1⟩ : Fin 3072) :=
    funext fun a => Fin.ext (by match a with | ⟨0, _⟩ => rfl | ⟨1, _⟩ => rfl)
  have hemb : ((cfg0.win 2).blk t).view.emb j
      = ix2 (⟨(j 0).val, hj0⟩ : Fin 256) (⟨t.val * 3072 + (j 1).val, hin⟩ : Fin 43234) := funext fun a => Fin.ext (by
    match a with
    | ⟨0, _⟩ => show win0_2.index t (0 : Fin 2) * 256 + 1 * (j 0).val = (j 0).val; omega
    | ⟨1, _⟩ => show win0_2.index t (1 : Fin 2) * 3072 + 1 * (j 1).val = t.val * 3072 + (j 1).val; omega)
  show blockOut (F := Ideal) _ _ _ (win0_2.xinj _ j) = Cert.Score.score _ _ (((cfg0.win 2).blk t).view.emb j)
  rw [blockOut_eq, hbq, pay_apply, hemb, Cert.Score.score_apply, maskBit_inside t _ hin, select_set, head_read]
  unfold Cert.Score.tailSum
  rw [Finset.sum_congr rfl fun k _ => tile_read m c t (⟨(j 1).val, hj1⟩ : Fin 3072) k (h20 ▸ hjx) hin]
  rfl

/-- An entry of the score table is in point `t`'s block iff each coordinate is in the block's part inside the table. -/
theorem mem_block (t : Fin cfg0.N) (i : S256x43234.Idx) :
    i ∈ ((cfg0.win 2).blk t).view.set
      ↔ ∀ a : Fin 2, win0_2.index t a * S256x3072.size a ≤ (i a).val
          ∧ (i a).val < win0_2.index t a * S256x3072.size a + win0_2.xsize (grid0.coords t) a := by
  show i ∈ ((View.whole main_v32).slice (win0_2.rect t)).set ↔ _
  rw [View.set_slice_whole, Rect.mem_set_unit]
  exact Iff.rfl

/-- Every entry of the score table is written back by some point: column `e` by point `e / 3072`. -/
theorem covered (i : S256x43234.Idx) :
    ∃ t : Fin cfg0.N, (cfg0.win 2).flush t = true ∧ i ∈ ((cfg0.win 2).blk t).view.set := by
  have hi0 : (i 0).val < 256 := (i 0).isLt
  have hi1 : (i 1).val < 43234 := (i 1).isLt
  have hlt : (i 1).val / 3072 < 15 := by omega
  let t : Fin cfg0.N := ⟨(i 1).val / 3072, hlt⟩
  have htv : t.val = (i 1).val / 3072 := rfl
  refine ⟨t, flush0_2 t, ?_⟩
  rw [mem_block]
  obtain ⟨-, -, -, -, e20, e21, -, ex⟩ := layout t
  obtain ⟨-, -, h2r⟩ := cuts t
  intro a
  match a with
  | ⟨0, _⟩ =>
    show win0_2.index t (0 : Fin 2) * 256 ≤ (i 0).val
      ∧ (i 0).val < win0_2.index t (0 : Fin 2) * 256 + win0_2.xsize (grid0.coords t) 0
    rw [e20, h2r]; omega
  | ⟨1, _⟩ =>
    show win0_2.index t (1 : Fin 2) * 3072 ≤ (i 1).val
      ∧ (i 1).val < win0_2.index t (1 : Fin 2) * 3072 + win0_2.xsize (grid0.coords t) 1
    rw [e21]; omega

/-- The score table after the run: the specification's score of the staged head sums and the entity table. -/
theorem final (c : Dev nD) :
    (dats m 0 c).arrAt 2 cfg0.N = Cert.Score.score (heads m c) (V m c main_arg4) :=
  (dats m 0 c).arrAt_eq_of_cover 2 _ (fun t _ => flushed_eq m c t) covered

/-! ## The run, read -/

/-- Every weakly fair execution terminates with the score table at the specification's score of the staged head sums
    and the launched entity table, and the five arguments as launched. -/
theorem run : θ_run defs (onTc (τ := τ) (main (F := Ideal))) ⟨m, fun _ => 0, ρ⟩ fun r => ∀ c : Dev nD,
      r.2.mem ((c.tc : Thread nD τ).loc main_v32)
        = Cert.Score.score (heads m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 2).trans ((final m c).trans (by rw [V_main_arg4])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats m 0 c).arrAt_in 0 rfl _).trans ((A_eq m c 0).trans (V_main_arg4 m c)))⟩)
    (run_main m ρ)

end Cert.KernelIdeal.Exact

end
-- ==== Proof.HeadSums.lean ====
/-
  The head sums the kernel stages are the reference's head sums.

  Before its region the kernel's program computes the head sums by the very host operations the reference starts
  with — the rectified projection plus bias, the gather of the head entities' rows, the rotation by cos and sin of
  π times the projection, the two absolute values, their sum along the 256 features — and reshapes the vector of 256
  sums to the column the region stages. So the column, read at row b, is the reference's head-sum stage of the same
  five arguments at b. The chain is carried as one opaque function: it is the same term on both sides and nothing
  in it is ever evaluated.
-/
import proofs.«146615_j28140625723971_2_alg».proof.Proof.KIValue
import proofs.«146615_j28140625723971_2_alg».proof.Proof.Gen.ReferenceIdeal.Read
import proofs.«146615_j28140625723971_2_alg».proof.Proof.LibKeepdims
import Idealize.ShloMosaic.Lib.StableHlo.Run

set_option maxRecDepth 16384

noncomputable section

namespace Cert.KernelIdeal.Exact

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The reference's head-sum stage of the kernel's five launched arguments. -/
def refHeads (c : Dev nD) : FVec Ideal Cert.Score.Heads .f32 :=
  Cert.ReferenceIdeal.Read.val_main_v30 (F := Ideal)
    (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

set_option maxHeartbeats 4000000 in
/-- The staged column is the reshape of that stage. -/
theorem staged_column (c : Dev nD) :
    (V m c main_v31 : S256x1.Idx → EReal) = shapeCast S256x1 (refHeads m c) shapeCasts_S256_S256x1 := by
  dsimp only [V]
  simp only [hostOps0, hostOps0_1, List.flatten_cons, List.flatten_nil, List.append_nil, List.cons_append,
    List.nil_append]
  after_results
  rfl

/-- The staged head sums are the reference's. -/
theorem heads_eq (c : Dev nD) : heads m c = refHeads m c := by
  funext j
  obtain ⟨b, rfl⟩ : ∃ b : Fin 256, j = ix1 b := ⟨j 0, eq_ix1 j⟩
  show V m c main_v31 (ix2 b (0 : Fin 1)) = _
  rw [staged_column]
  exact shapeCast_a_a1_apply _ shapeCasts_S256_S256x1 b (0 : Fin 1)

end Cert.KernelIdeal.Exact

end
-- ==== Proof.RefScore.lean ====
/-
  The reference's result is the specification's score of its own head sums and the entity table.

  What the reference computes, index by index. Write `hs` for the vector of head sums (operation %30, one entry per
  batch row; it is never opened here) and `ent` for the entity table (%arg4, 43234 rows of 512 columns).

    * %31 and %32 are the two column halves of the table: at (e, d), d < 256, they read `ent (e, d)` and
      `ent (e, 256 + d)`.
    * %33 adds the halves: at (e, d) it is `ent (e, d) + ent (e, 256 + d)`.
    * %34 sums each row of %33 over its 256 columns, starting from the zero word, which is the extended real 0:
      at e it is `0 + ∑ d < 256, (ent (e, d) + ent (e, 256 + d))`.
    * %35 and %37 spread the head sums along the entity axis, %36 and %38 spread the row sums along the batch axis:
      at (b, e) they read `hs b` and the row sum of `e`.
    * %39 is their difference, %40 the constant one (the word 0x3F800000 everywhere), %41 the quotient:
      at (b, e) the result is `1 / (hs b - (0 + ∑ d < 256, (ent (e, d) + ent (e, 256 + d))))`,
      the quotient being the ideal instance's total division on the extended reals.

  The specification's score at (b, e) is `1 / (hs b - ∑ k < 512, ent (e, k))`. The two differ only in how the tail sum
  of row `e` is grouped, and the one law that joins them is the regrouping of a finite sum, `Cert.Score.sum_halves`:
  a sum over 512 columns is the sum over 256 of the pairs (column d, column 256 + d). It uses commutativity and
  associativity of addition on the extended reals only, so no finiteness of the table's entries is needed. The
  constant one is the same word on both sides and is never evaluated.
-/
import proofs.«146615_j28140625723971_2_alg».proof.Proof.Gen.ReferenceIdeal.Read
import proofs.«146615_j28140625723971_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference's row sum of entity `e` (operation %34) is the specification's tail sum of `e`.

    At `e` the row sum is the zero word plus the sum over `d < 256` of %33 at (e, d); the zero word is the extended
    real 0 and drops out. %33 at (e, d) is the sum of the two halves, which read the table at (e, d) and at
    (e, 256 + d). The tail sum is the sum of all 512 columns of row `e`, and regrouping it into the 256 pairs
    (d, 256 + d) gives the same sum term by term. -/
theorem rowSum_eq_tailSum (x4 : (⟨S43234x512, .f32⟩ : BufTy).Contents (Elt Ideal)) (e : Fin 43234) :
    Read.val_main_v34 (F := Ideal) x4 (ix1 e) = Cert.Score.tailSum x4 e := by
  -- the row sum at `e`: 0 + ∑ d < 256, %33 (e, d)
  rw [Read.val_main_v34_apply, Read.val_main_cst_3_apply, Ideal.ofBits_def, Ideal.ofBits_zero_f32, zero_add]
  -- the tail sum, regrouped into the 256 pairs of columns (d, 256 + d)
  unfold Cert.Score.tailSum
  rw [Cert.Score.sum_halves]
  -- term by term: %33 (e, d) = ent (e, d) + ent (e, 256 + d)
  refine Finset.sum_congr rfl fun k _ => ?_
  rw [Read.val_main_v33_apply, Read.val_main_v31_apply, Read.val_main_v32_apply, Ideal.addf_def]
  refine congrArg₂ (· + ·) (congrArg x4 ?_) (congrArg x4 ?_)
  -- the first half reads row `e`, column `d` …
  · exact funext fun a => Fin.ext (by match a with | ⟨0, _⟩ => rfl | ⟨1, _⟩ => rfl)
  -- … and the second half row `e`, column `256 + d`
  · exact funext fun a => Fin.ext (by match a with | ⟨0, _⟩ => rfl | ⟨1, _⟩ => rfl)

/-- The reference's result (operation %41) is the specification's score of the reference's own head sums
    (operation %30, kept as an opaque vector) and the entity table.

    At (b, e) the result is the quotient of the constant one by the difference %39; the difference reads the head
    sums at `b` through the two broadcasts %35, %37 and the row sums at `e` through the two broadcasts %36, %38; the
    row sum of `e` is the tail sum of `e` by `rowSum_eq_tailSum`. What is left is the specification's score at
    (b, e), word for word. -/
theorem ref_is_score
    (x0 : (⟨S256x768, .f32⟩ : BufTy).Contents (Elt Ideal)) (x1 : (⟨S256, .i32⟩ : BufTy).Contents (Elt Ideal))
    (x2 : (⟨S256x768, .f32⟩ : BufTy).Contents (Elt Ideal)) (x3 : (⟨S256, .f32⟩ : BufTy).Contents (Elt Ideal))
    (x4 : (⟨S43234x512, .f32⟩ : BufTy).Contents (Elt Ideal)) :
    Read.val_main_v41 (F := Ideal) x0 x1 x2 x3 x4
      = Cert.Score.score (Read.val_main_v30 (F := Ideal) x0 x1 x2 x3 x4) x4 := by
  funext j
  obtain ⟨b, e, rfl⟩ : ∃ (b : Fin 256) (e : Fin 43234), j = ix2 b e := ⟨j 0, j 1, eq_ix2 j⟩
  -- through the broadcasts %37 then %35 the index (b, e) reads the head sums at `b` …
  have hb : Read.idx_main_v35 (Read.idx_main_v37 (ix2 b e)) = ix1 b :=
    funext fun a => Fin.ext (by match a with | ⟨0, _⟩ => rfl)
  -- … and through the broadcasts %38 then %36 it reads the row sums at `e`
  have he : Read.idx_main_v36 (Read.idx_main_v38 (ix2 b e)) = ix1 e :=
    funext fun a => Fin.ext (by match a with | ⟨0, _⟩ => rfl)
  -- 1 / (hs b - row sum of e) on the left, 1 / (hs b - tail sum of e) on the right
  rw [Read.val_main_v41_apply, Read.val_main_v40_apply, Read.val_main_cst_4_apply, Read.val_main_v39_apply,
    Read.val_main_v37_apply, Read.val_main_v35_apply, Read.val_main_v38_apply, Read.val_main_v36_apply, hb, he,
    rowSum_eq_tailSum, Cert.Score.score_apply, Ideal.hostDivf_def, Ideal.subf_def, Ideal.ofBits_def]

end Cert.ReferenceIdeal.RefValue

end
-- ==== Proof.lean ====
/-
  The score kernel against its reference: the five claims.

  Both programs compute, for 256 batch rows and 43234 entities, the table

      score (b, e) = 1 / (head b - tail e),

  where the head sums come from the same host operations in both, and the tail sum of entity e is the sum of its
  512 table entries. The kernel streams the entity table through a grid of 15 tiles of 3072 rows (the last holding
  226), sums each row of a tile whole, and writes the matching 3072 columns of the score table (the last block again
  226 columns); the reference splits the table's columns into two halves of 256, adds the halves, and sums the 256
  pairs. On the extended reals the two tail sums are one finite sum regrouped — commutativity and associativity of
  addition only, so the claim holds without any use of the inputs' finiteness — and the rest is the same arithmetic,
  with the same word for the constant one.

  The claims:
    * the word-level kernel runs to its end and leaves its arguments alone; nothing is said of its score table,
      because at the word level nothing ties a row sum to its row alone, and the last tile's buffer holds rows past
      the table's end that nothing names;
    * the idealized kernel does the same, and its score table ends at the specification's score of the staged head
      sums and the entity table: the columns written back never read the unnamed rows;
    * the idealized reference runs to its end, its arguments unchanged, its result the specification's score of its
      own head sums and the table;
    * the idealization rewrote nothing, so it is trivially the kernel's own text read on the extended reals;
    * from memories that agree on the arguments the two head-sum stages are one function of equal arguments, so the
      two score tables are equal entry by entry.
-/
import proofs.«146615_j28140625723971_2_alg».proof.Defs
import proofs.«146615_j28140625723971_2_alg».proof.Proof.Gen.Kernel
import proofs.«146615_j28140625723971_2_alg».proof.Proof.Gen.KernelIdeal
import proofs.«146615_j28140625723971_2_alg».proof.Proof.Gen.ReferenceIdeal
import proofs.«146615_j28140625723971_2_alg».proof.Proof.Gen.Pre_finite_inputs
import proofs.«146615_j28140625723971_2_alg».proof.Proof.Gen.ReferenceIdeal.Run
import proofs.«146615_j28140625723971_2_alg».proof.Proof.Gen.ReferenceIdeal.Read
import proofs.«146615_j28140625723971_2_alg».proof.Proof.KFrame
import proofs.«146615_j28140625723971_2_alg».proof.Proof.KIValue
import proofs.«146615_j28140625723971_2_alg».proof.Proof.HeadSums
import proofs.«146615_j28140625723971_2_alg».proof.Proof.RefScore
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : @Cert.frame_Kernel Cert.Kernel.Gen.facts Cert.Pre_finite_inputs.Gen.facts :=
  Cert.Kernel.WordFrame.frame

/-- So does the idealized kernel. -/
theorem frame_kernelIdeal : @Cert.frame_KernelIdeal Cert.KernelIdeal.Gen.facts Cert.Pre_finite_inputs.Gen.facts :=
  fun m ρ _ => Cert.KernelIdeal.Exact.frame m ρ

/-- And the idealized reference: its run, the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- Both score tables are the specification's score of one vector of head sums and one entity table. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Score.score (Cert.KernelIdeal.Exact.refHeads m c)
      (m ((c.tc : Thread Cert.KernelIdeal.nD Cert.KernelIdeal.τ).loc Cert.KernelIdeal.main_arg4)), ?_, ?_⟩
  · -- the kernel: its staged head sums are the reference's head-sum stage of its own arguments
    refine (θ_run Cert.KernelIdeal.defs _ _).mono (fun r h c => ⟨(h c).1.trans ?_, (h c).2⟩)
      (Cert.KernelIdeal.Exact.run m ρ)
    rw [Cert.KernelIdeal.Exact.heads_eq]
  · -- the reference: its result is the score of its own head-sum stage, at arguments equal to the kernel's
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v41_eq, Cert.ReferenceIdeal.RefValue.ref_is_score,
      (hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
